-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S640000 : Shape := ⟨1, ![640000]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x640000 32) (main_arg2 : FVec F S640000 .f32) (main_arg3 : FVec F S256x128 .f32) (main_arg4 : FVec F S128 .f32) (main_arg5 : FVec F S256x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x640000 : Shape := ⟨2, ![2, 640000]⟩
abbrev S640000 : Shape := ⟨1, ![640000]⟩
abbrev S256x128 : Shape := ⟨2, ![256, 128]⟩
abbrev S128 : Shape := ⟨1, ![128]⟩
abbrev S1x640000 : Shape := ⟨2, ![1, 640000]⟩
abbrev S_ : Shape := ⟨0, ![]⟩
abbrev S50000 : Shape := ⟨1, ![50000]⟩
abbrev S640000x1 : Shape := ⟨2, ![640000, 1]⟩
abbrev S640000x128 : Shape := ⟨2, ![640000, 128]⟩
abbrev S50000x1 : Shape := ⟨2, ![50000, 1]⟩
abbrev S1x128 : Shape := ⟨2, ![1, 128]⟩
abbrev S5000x128 : Shape := ⟨2, ![5000, 128]⟩
abbrev S5000x256 : Shape := ⟨2, ![5000, 256]⟩

abbrev nBuf : Space → Nat
  | .hbm => 66
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .f32⟩
  | .hbm, ⟨12, _⟩ => ⟨S640000, .f32⟩
  | .hbm, ⟨13, _⟩ => ⟨S_, .f32⟩
  | .hbm, ⟨14, _⟩ => ⟨S50000, .f32⟩
  | .hbm, ⟨15, _⟩ => ⟨S640000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000x128, .bf16⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .bf16⟩
  | .hbm, ⟨30, _⟩ => ⟨S640000x128, .f32⟩
  | .hbm, ⟨31, _⟩ => ⟨S640000x1, .f32⟩
  | .hbm, ⟨32, _⟩ => ⟨S640000x128, .f32⟩
  | .hbm, ⟨33, _⟩ => ⟨S640000x128, .f32⟩
  | .hbm, ⟨34, _⟩ => ⟨S_, .f32⟩
  | .hbm, ⟨35, _⟩ => ⟨S50000x128, .f32⟩
  | .hbm, ⟨36, _⟩ => ⟨S640000x1, .i32⟩
  | .hbm, ⟨37, _⟩ => ⟨S50000x128, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .bf16⟩
  | .hbm, ⟨44, _⟩ => ⟨S_, .i32⟩
  | .hbm, ⟨45, _⟩ => ⟨S640000, .i32⟩
  | .hbm, ⟨46, _⟩ => ⟨S640000, .i1⟩
  | .hbm, ⟨47, _⟩ => ⟨S_, .i32⟩
  | .hbm, ⟨48, _⟩ => ⟨S640000, .i32⟩
  | .hbm, ⟨49, _⟩ => ⟨S640000, .i32⟩
  | .hbm, ⟨50, _⟩ => ⟨S640000, .i32⟩
  | .hbm, ⟨51, _⟩ => ⟨S640000x1, .i32⟩
  | .hbm, ⟨52, _⟩ => ⟨S640000x128, .bf16⟩
  | .hbm, ⟨53, _⟩ => ⟨S640000x128, .f32⟩
  | .hbm, ⟨54, _⟩ => ⟨S640000x1, .f32⟩
  | .hbm, ⟨55, _⟩ => ⟨S640000x128, .f32⟩
  | .hbm, ⟨56, _⟩ => ⟨S640000x128, .f32⟩
  | .hbm, ⟨57, _⟩ => ⟨S_, .f32⟩
  | .hbm, ⟨58, _⟩ => ⟨S50000x128, .f32⟩
  | .hbm, ⟨59, _⟩ => ⟨S640000x1, .i32⟩
  | .hbm, ⟨60, _⟩ => ⟨S50000x128, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S1x128, .f32⟩
  | .hbm, ⟨65, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S256x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S256x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bitsLt_bf16_f32 : FTy.bits .bf16 < FTy.bits .f32
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S640000 : Shape := ⟨1, ![640000]⟩
abbrev S256x128 : Shape := ⟨2, ![256, 128]⟩
abbrev S128 : Shape := ⟨1, ![128]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S50000x256 : Shape := ⟨2, ![50000, 256]⟩
abbrev S1x128 : Shape := ⟨2, ![1, 128]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S640000x1, .f32⟩
  | .hbm, ⟨21, _⟩ => ⟨S640000x128, .f32⟩
  | .hbm, ⟨22, _⟩ => ⟨S640000x128, .f32⟩
  | .hbm, ⟨23, _⟩ => ⟨S_, .f32⟩
  | .hbm, ⟨24, _⟩ => ⟨S50000x128, .f32⟩
  | .hbm, ⟨25, _⟩ => ⟨S640000x1, .i32⟩
  | .hbm, ⟨26, _⟩ => ⟨S50000x128, .f32⟩
  | .hbm, ⟨27, _⟩ => ⟨S_, .f32⟩
  | .hbm, ⟨28, _⟩ => ⟨S640000, .f32⟩
  | .hbm, ⟨29, _⟩ => ⟨S_, .f32⟩
  | .hbm, ⟨30, _⟩ => ⟨S50000, .f32⟩
  | .hbm, ⟨31, _⟩ => ⟨S640000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x256, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S1x640000, .i32⟩
  | .hbm, ⟨48, _⟩ => ⟨S640000, .i32⟩
  | .hbm, ⟨49, _⟩ => ⟨S1x640000, .i32⟩
  | .hbm, ⟨50, _⟩ => ⟨S640000, .i32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000x128, .f32⟩
  | .hbm, ⟨60, _⟩ => ⟨S640000x1, .f32⟩
  | .hbm, ⟨61, _⟩ => ⟨S640000x128, .f32⟩
  | .hbm, ⟨62, _⟩ => ⟨S640000x128, .f32⟩
  | .hbm, ⟨63, _⟩ => ⟨S_, .f32⟩
  | .hbm, ⟨64, _⟩ => ⟨S50000x128, .f32⟩
  | .hbm, ⟨65, _⟩ => ⟨S640000x1, .i32⟩
  | .hbm, ⟨66, _⟩ => ⟨S50000x128, .f32⟩
  | .hbm, ⟨67, _⟩ => ⟨S_, .f32⟩
  | .hbm, ⟨68, _⟩ => ⟨S640000, .f32⟩
  | .hbm, ⟨69, _⟩ => ⟨S_, .f32⟩
  | .hbm, ⟨70, _⟩ => ⟨S50000, .f32⟩
  | .hbm, ⟨71, _⟩ => ⟨S640000x1, .i32⟩
  | .hbm, ⟨72, _⟩ => ⟨S50000, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S50000x256, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_cst : Ref sig .tc := ⟨.hbm, 44, rfl⟩
abbrev main_call0_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_4 : Ref sig .tc := ⟨.hbm, 51, rfl⟩
abbrev main_v36 : Ref sig .tc := ⟨.hbm, 52, rfl⟩
abbrev main_v37 : Ref sig .tc := ⟨.hbm, 53, rfl⟩
abbrev main_c_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_call1_cst : Ref sig .tc := ⟨.hbm, 84, rfl⟩
abbrev main_call1_v0 : Ref sig .tc := ⟨.hbm, 85, rfl⟩
abbrev main_v63 : Ref sig .tc := ⟨.hbm, 86, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x256_S256x128_S50000x128_1_0_0_1_n_n_wf : DotDims.WF S50000x256 S256x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel program's run with its result buffer named.

  The program is four segments: host operations, the first layer's region, host operations, the second layer's
  region.  Each boundary's buffer contents are a fold from the launch memory (a host stretch applies its operations;
  a region replaces its output array by what its write-backs leave).  The run below ends with the result buffer at the
  last boundary's contents and the argument arrays as launched; the value modules then read those contents.
-/
import proofs.«181337_j49289044689459_2_alg».proof.Proof.Gen.KernelIdeal.Frame

set_option maxRecDepth 16384

noncomputable section

namespace Cert.KernelIdeal.RunValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result named: at the compiled mesh, from any memory with zero counters, every weakly fair
    execution of @main terminates without a fault, the result buffer ends at the last boundary's contents `W4` (the
    fold of the host stretches and the two regions' write-backs from the launch memory), and the arguments end as
    launched.  The launch over the program's four segments, the last thread state read against the final state. -/
theorem run_named : θ_run defs (onTc (τ := τ) (main (F := F))) ⟨m, fun _ => 0, ρ⟩ (fun r => ∀ c : Dev nD,
      r.2.mem ((c.tc : Thread nD τ).loc main_v49) = W4 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v49 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.RunValue

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibMatDims.lean ====
/-
  The dimension numbers of a plain matrix product, read at an entry.

  A product of an m×K matrix by a K×n matrix that contracts the left factor's columns against the right factor's rows,
  with no batch axes, reads — at output entry (p, q) and contraction position k — the left factor at (p, k) and the
  right factor at (k, q).  These are the four index facts the entry-wise reading of a product asks for, derived once
  from the lists of the dimension record instead of per record.
-/
import Idealize.ShloMosaic.PureOps.Dims

noncomputable section

namespace Cert.Lib.MatDims

open Idealize.ShloMosaic

variable {m K n : Nat} (D : DotDims ⟨2, ![m, K]⟩ ⟨2, ![K, n]⟩ ⟨2, ![m, n]⟩)

/-- One contracted axis. -/
theorem contr_rank (hc : D.lhsContracting = [1]) : D.contr.rank = 1 := by
  rw [D.rank_contr, hc]; rfl

/-- Its extent is the left factor's column count. -/
theorem contr_size (hc : D.lhsContracting = [1]) :
    D.contr.size ⟨0, by rw [contr_rank D hc]; exact Nat.one_pos⟩ = K := by
  rw [D.size_contr 0 (by rw [hc]; exact Nat.one_pos)]
  simp only [hc]
  rfl

/-- The left factor's row is the output's row. -/
theorem lhs_row (hb : D.lhsBatch = []) (hn : D.lhsNonContracting = [0])
    (i : (⟨2, ![m, n]⟩ : Shape).Idx) (c : D.contr.Idx) : (D.lhsIdx i c 0).val = (i 0).val := by
  unfold DotDims.lhsIdx
  rw [dif_neg (by rw [hb]; exact List.not_mem_nil), dif_pos (by rw [hn]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn])

/-- The left factor's column is the contraction position. -/
theorem lhs_col (hc : D.lhsContracting = [1]) (i : (⟨2, ![m, n]⟩ : Shape).Idx) (c : D.contr.Idx) :
    (D.lhsIdx i c 1).val = (c ⟨0, by rw [contr_rank D hc]; exact Nat.one_pos⟩).val :=
  D.lhsIdx_val_of_single hc i c

/-- The right factor's row is the contraction position. -/
theorem rhs_row (hc : D.lhsContracting = [1]) (hc' : D.rhsContracting = [0]) (i : (⟨2, ![m, n]⟩ : Shape).Idx)
    (c : D.contr.Idx) : (D.rhsIdx i c 0).val = (c ⟨0, by rw [contr_rank D hc]; exact Nat.one_pos⟩).val :=
  D.rhsIdx_val_of_single hc' i c

/-- The right factor's column is the output's column. -/
theorem rhs_col (hb : D.lhsBatch = []) (hb' : D.rhsBatch = []) (hn : D.lhsNonContracting = [0])
    (hn' : D.rhsNonContracting = [1]) (i : (⟨2, ![m, n]⟩ : Shape).Idx) (c : D.contr.Idx) :
    (D.rhsIdx i c 1).val = (i 1).val := by
  unfold DotDims.rhsIdx
  rw [dif_neg (by rw [hb']; exact List.not_mem_nil), dif_pos (by rw [hn']; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn, hn'])

end Cert.Lib.MatDims

end
-- ==== Proof.LibDenseLayer.lean ====
/-
  A dense layer as a TensorCore kernel computes it and as the host computes it, each read at an entry.

  The kernel multiplies an m×K block by a K×n weight matrix into a zero accumulator, casts the length-n bias to a
  [1, n] row, repeats the row down the m rows and adds.  The host takes the dot_general of the two matrices, lays the bias
  out as a [1, n] row and then as an [m, n] matrix by two broadcast_in_dim, and adds.  At exact arithmetic entry (p, q) of
  either result is (Σₖ left(p, k)·right(k, q)) + bias(q), whatever float formats the kernel's two factors carry.
-/
import Idealize.ShloMosaic.Lib.ValueIdx
import Idealize.ShloMosaic.Lib.ValueLayout
import Idealize.ShloMosaic.Lib.Pipeline.Value
import Idealize.ShloMosaic.PureOps.Ideal.Laws
import proofs.«181337_j49289044689459_2_alg».proof.Proof.LibDotEntry
import proofs.«181337_j49289044689459_2_alg».proof.Proof.LibMatDims

noncomputable section

namespace Cert.Lib.DenseLayer

open Idealize.ShloMosaic Idealize.ShloMosaic.TcCoe Idealize.SL.Sem Idealize.ShloMosaic.ValueIdx

/-- The dimension numbers of a plain matrix product: contract the left factor's columns against the right factor's
    rows; no batch axes. -/
structure IsMatProduct {m K n : Nat} (D : DotDims ⟨2, ![m, K]⟩ ⟨2, ![K, n]⟩ ⟨2, ![m, n]⟩) : Prop where
  lhsBatch : D.lhsBatch = []
  rhsBatch : D.rhsBatch = []
  lhsNon : D.lhsNonContracting = [0]
  rhsNon : D.rhsNonContracting = [1]
  lhsContr : D.lhsContracting = [1]
  rhsContr : D.rhsContracting = [0]

variable {m K n : Nat} {D : DotDims ⟨2, ![m, K]⟩ ⟨2, ![K, n]⟩ ⟨2, ![m, n]⟩}

/-- A TensorCore product into a zero accumulator at entry (p, q): the sum over k of left(p, k)·right(k, q). -/
theorem matmul_entry (hD : IsMatProduct D) {φ₁ φ₂ : FTy} (lhs : FVec Ideal ⟨2, ![m, K]⟩ φ₁)
    (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) :=
  Cert.Lib.DotEntry.matmul_zero_ix2 D (Cert.Lib.MatDims.contr_rank D hD.lhsContr) (Cert.Lib.MatDims.contr_size D hD.lhsContr)
    (Cert.Lib.MatDims.lhs_row D hD.lhsBatch hD.lhsNon) (Cert.Lib.MatDims.lhs_col D hD.lhsContr)
    (Cert.Lib.MatDims.rhs_row D hD.lhsContr hD.rhsContr)
    (Cert.Lib.MatDims.rhs_col D hD.lhsBatch hD.rhsBatch hD.lhsNon hD.rhsNon) lhs rhs p q

/-- The host's product at entry (p, q): the same sum. -/
theorem dotGeneral_entry (hD : IsMatProduct D) (lhs : FVec Ideal ⟨2, ![m, K]⟩ .f32)
    (rhs : FVec Ideal ⟨2, ![K, n]⟩ .f32) (p : Fin m) (q : Fin n) :
    Host.dotGeneral (F := Ideal) D none lhs rhs (ix2 p q) = ∑ k : Fin K, lhs (ix2 p k) * rhs (ix2 k q) :=
  Cert.Lib.DotEntry.dotGeneral_ix2 D (Cert.Lib.MatDims.contr_rank D hD.lhsContr) (Cert.Lib.MatDims.contr_size D hD.lhsContr)
    (Cert.Lib.MatDims.lhs_row D hD.lhsBatch hD.lhsNon) (Cert.Lib.MatDims.lhs_col D hD.lhsContr)
    (Cert.Lib.MatDims.rhs_row D hD.lhsContr hD.rhsContr)
    (Cert.Lib.MatDims.rhs_col D hD.lhsBatch hD.rhsBatch hD.lhsNon hD.rhsNon) lhs rhs p q

/-- The bias as the kernel lays it out — cast to a [1, n] row, the row repeated down m rows — at entry (p, q): bias(q). -/
theorem bias_entry {φ : FTy} (b : FVec Ideal ⟨1, ![n]⟩ φ) (hsc : (⟨1, ![n]⟩ : Shape).ShapeCasts ⟨2, ![1, n]⟩)
    (hbc : (⟨2, ![1, n]⟩ : Shape).Broadcasts ⟨2, ![m, n]⟩) (p : Fin m) (q : Fin n) :
    broadcastTo ⟨2, ![m, n]⟩ (shapeCast ⟨2, ![1, n]⟩ b hsc) hbc (ix2 p q) = b (ix1 q) :=
  (broadcastTo_1b_ab_apply _ hbc p q).trans (shapeCast_a_1a_apply b hsc 0 q)

/-- The kernel's dense layer at entry (p, q). -/
theorem dense_entry (hD : IsMatProduct D) {φ₁ φ₂ : FTy} (lhs : FVec Ideal ⟨2, ![m, K]⟩ φ₁)
    (rhs : FVec Ideal ⟨2, ![K, n]⟩ φ₂) (b : FVec Ideal ⟨1, ![n]⟩ .f32)
    (hsc : (⟨1, ![n]⟩ : Shape).ShapeCasts ⟨2, ![1, n]⟩) (hbc : (⟨2, ![1, n]⟩ : Shape).Broadcasts ⟨2, ![m, n]⟩)
    (p : Fin m) (q : Fin n) :
    addf (matmul D none lhs rhs (constant (F := Ideal) ⟨2, ![m, n]⟩ .f32 0x00000000#32))
        (broadcastTo ⟨2, ![m, n]⟩ (shapeCast ⟨2, ![1, n]⟩ b hsc) hbc) (ix2 p q)
      = (∑ k : Fin K, lhs (ix2 p k) * rhs (ix2 k q)) + b (ix1 q) := by
  rw [addf_apply, matmul_entry hD, bias_entry]

/-- The bias as the host lays it out — to a [1, n] row along axis 1, then to [m, n] along both axes — at entry (p, q):
    bias(q). -/
theorem host_bias_entry {α : Type} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    broadcastInDim ⟨2, ![m, n]⟩ ![0, 1] h₂ (broadcastInDim ⟨2, ![1, n]⟩ ![1] h₁ b) (ix2 p q) = b (ix1 q) := by
  refine (broadcastInDim_apply _ h₂ _ (ix2 p q) (ix2 (0 : Fin 1) q) fun ax => ?_).trans ?_
  · match ax with
    | ⟨0, _⟩ => rfl
    | ⟨1, _⟩ =>
      show q.val = if n = 1 then 0 else q.val
      split
      · have := q.isLt; omega
      · rfl
  · refine broadcastInDim_apply _ h₁ b (ix2 (0 : Fin 1) q) (ix1 q) fun ax => ?_
    match ax with
    | ⟨0, _⟩ =>
      show q.val = if n = 1 then 0 else q.val
      split
      · have := q.isLt; omega
      · rfl

/-- The host's dense layer at entry (p, q). -/
theorem host_dense_entry (hD : IsMatProduct D) (lhs : FVec Ideal ⟨2, ![m, K]⟩ .f32) (rhs : FVec Ideal ⟨2, ![K, n]⟩ .f32)
    (b : FVec Ideal ⟨1, ![n]⟩ .f32)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    addf (Host.dotGeneral (F := Ideal) D none lhs rhs)
        (broadcastInDim ⟨2, ![m, n]⟩ ![0, 1] h₂ (broadcastInDim ⟨2, ![1, n]⟩ ![1] h₁ b)) (ix2 p q)
      = (∑ k : Fin K, lhs (ix2 p k) * rhs (ix2 k q)) + b (ix1 q) := by
  rw [addf_apply, dotGeneral_entry hD, host_bias_entry]

end Cert.Lib.DenseLayer

end
-- ==== Proof.LibJoinCols.lean ====
/-
  Two matrices with the same number of rows laid side by side, read at an entry. If `x` is n × a and `y` is n × b,
  their concatenation along the column axis is n × c (the shape record's side condition makes c = a + b); its entry
  (p, k) is `x (p, k)` when k < a and `y (p, k - a)` otherwise.
-/
import Idealize.ShloMosaic.Lib.ValueIdx
import Idealize.ShloMosaic.Lib.Pipeline.Value

noncomputable section

namespace Cert.Lib.JoinCols

open Idealize.ShloMosaic Idealize.ShloMosaic.ValueIdx

variable {α : Type}

/-- A column position inside the first matrix reads the first matrix there. -/
theorem concat_cols_left {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (hk : k.val < a) :
    concatenate (⟨2, ![n, c]⟩ : Shape) (1 : Fin 2) [⟨⟨2, ![n, a]⟩, x⟩, ⟨⟨2, ![n, b]⟩, y⟩] h (ix2 p k) = x (ix2 p ⟨k.val, hk⟩) :=
  concatenate_pair_apply_left (1 : Fin 2) x y h (ix2 p k) rfl (ix2 p ⟨k.val, hk⟩) (fun d => by
    match d with
    | ⟨0, _⟩ => rfl
    | ⟨1, _⟩ => rfl)

/-- A column position past the first matrix reads the second matrix, the first one's width less. -/
theorem concat_cols_right {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (hk : a ≤ k.val) (hb : k.val - a < b) :
    concatenate (⟨2, ![n, c]⟩ : Shape) (1 : Fin 2) [⟨⟨2, ![n, a]⟩, x⟩, ⟨⟨2, ![n, b]⟩, y⟩] h (ix2 p k) = y (ix2 p ⟨k.val - a, hb⟩) :=
  concatenate_pair_apply_right (1 : Fin 2) x y h (ix2 p k) rfl rfl (ix2 p ⟨k.val - a, hb⟩) (fun d hd => by
    match d with
    | ⟨0, _⟩ => rfl
    | ⟨1, _⟩ => exact absurd rfl hd) (by show k.val - a + a = k.val; omega)

end Cert.Lib.JoinCols

end
-- ==== Proof.LibJoinedLayer.lean ====
/-
  A rectified dense layer over two matrices laid side by side, read at an entry.

  Given an m×a matrix x and an m×b matrix g, join them along the columns into an m×c matrix, multiply by a c×n weight
  matrix, add a bias along the rows and take the maximum with zero.  At exact arithmetic entry (p, q) of the result is
      max ((Σₖ joined(x row p, g row p)(k) · w(k, q)) + bias(q), 0),
  where the joined row reads x's row on its first a positions and g's row after them.  This holds both for the
  TensorCore spelling (a matmul into a zero accumulator, the bias a [1, n] row repeated down the rows, a splat zero) and
  for the host's (a dot_general, the bias laid out by two broadcast_in_dim, the zero a broadcast scalar), whatever float
  formats the factors carry: at exact arithmetic a format is a label.
-/
import Idealize.ShloMosaic.Lib.ValueIdx
import Idealize.ShloMosaic.Lib.ValueLayout
import Idealize.ShloMosaic.Lib.Pipeline.Value
import Idealize.ShloMosaic.PureOps.Ideal.Laws
import proofs.«181337_j49289044689459_2_alg».proof.Proof.LibDenseLayer
import proofs.«181337_j49289044689459_2_alg».proof.Proof.LibJoinCols

noncomputable section

namespace Cert.Lib.JoinedLayer

open Idealize.ShloMosaic Idealize.ShloMosaic.TcCoe Idealize.SL.Sem Idealize.ShloMosaic.ValueIdx
open Cert.Lib.DenseLayer

/-- Two rows laid end to end: the first on positions below `a`, the second on the `b` positions after them (zero past
    both, which no position is when c ≤ a + b). -/
def joined {a b c : Nat} (xr : Fin a → EReal) (gr : Fin b → EReal) (k : Fin c) : EReal :=
  if h : k.val < a then xr ⟨k.val, h⟩ else if h' : k.val - a < b then gr ⟨k.val - a, h'⟩ else 0

/-- One entry of the layer from the two rows, the weight column and the bias entry. -/
def entry {a b c : Nat} (xr : Fin a → EReal) (gr : Fin b → EReal) (wc : Fin c → EReal) (bq : EReal) : EReal :=
  max ((∑ k : Fin c, joined xr gr k * wc k) + bq) 0

/-- An entry depends on its rows, its weight column and its bias entry only through their values. -/
theorem entry_congr {a b c : Nat} {xr xr' : Fin a → EReal} {gr gr' : Fin b → EReal} {wc wc' : Fin c → EReal} {bq bq' : EReal}
    (hx : ∀ j, xr j = xr' j) (hg : ∀ j, gr j = gr' j) (hw : ∀ k, wc k = wc' k) (hb : bq = bq') :
    entry xr gr wc bq = entry xr' gr' wc' bq' := by
  rw [funext hx, funext hg, funext hw, hb]

variable {m a b c n : Nat}

/-- The column-wise join of two matrices at entry (p, k) is the join of their rows p at position k. -/
theorem concat_entry {φ : FTy} (x : FVec Ideal ⟨2, ![m, a]⟩ φ) (g : FVec Ideal ⟨2, ![m, b]⟩ φ)
    (h : Shape.Concatenates [(⟨2, ![m, a]⟩ : Shape), ⟨2, ![m, b]⟩] ⟨2, ![m, c]⟩ (1 : Fin 2)) (hc : c ≤ a + b)
    (p : Fin m) (k : Fin c) :
    concatenate (⟨2, ![m, c]⟩ : Shape) (1 : Fin 2) [⟨⟨2, ![m, a]⟩, x⟩, ⟨⟨2, ![m, b]⟩, g⟩] h (ix2 p k)
      = joined (fun j => x (ix2 p j)) (fun j => g (ix2 p j)) k := by
  unfold joined
  by_cases hk : k.val < a
  · rw [dif_pos hk]; exact Cert.Lib.JoinCols.concat_cols_left x g h p k hk
  · have hb : k.val - a < b := by have := k.isLt; omega
    rw [dif_neg hk, dif_pos hb]
    exact Cert.Lib.JoinCols.concat_cols_right x g h p k (by omega) hb

/-- The layer as a TensorCore body spells it, at entry (p, q). -/
theorem kernel_entry {D : DotDims ⟨2, ![m, c]⟩ ⟨2, ![c, n]⟩ ⟨2, ![m, n]⟩} (hD : IsMatProduct D) {φ φw : FTy}
    (x : FVec Ideal ⟨2, ![m, a]⟩ φ) (g : FVec Ideal ⟨2, ![m, b]⟩ φ) (w : FVec Ideal ⟨2, ![c, n]⟩ φw)
    (brow : FVec Ideal ⟨2, ![1, n]⟩ .f32)
    (h : Shape.Concatenates [(⟨2, ![m, a]⟩ : Shape), ⟨2, ![m, b]⟩] ⟨2, ![m, c]⟩ (1 : Fin 2)) (hc : c ≤ a + b)
    (hbc : (⟨2, ![1, n]⟩ : Shape).Broadcasts ⟨2, ![m, n]⟩) (z : Ideal .f32) (hz : z = 0) (p : Fin m) (q : Fin n) :
    maximumf (addf (matmul D none
          (concatenate (⟨2, ![m, c]⟩ : Shape) (1 : Fin 2) [⟨⟨2, ![m, a]⟩, x⟩, ⟨⟨2, ![m, b]⟩, g⟩] h) w
          (constant (F := Ideal) ⟨2, ![m, n]⟩ .f32 0x00000000#32))
        (broadcastTo ⟨2, ![m, n]⟩ brow hbc)) (broadcast ⟨2, ![m, n]⟩ z) (ix2 p q)
      = entry (fun j => x (ix2 p j)) (fun j => g (ix2 p j)) (fun k => w (ix2 k q)) (brow (ix2 (0 : Fin 1) q)) := by
  rw [maximumf_apply, addf_apply, matmul_entry hD, broadcastTo_1b_ab_apply, broadcast_apply, hz]
  unfold entry
  refine congrArg (fun s => max (s + brow (ix2 (0 : Fin 1) q)) 0) (Finset.sum_congr rfl fun k _ => ?_)
  rw [concat_entry x g h hc p k]

/-- The layer as the host spells it, at entry (p, q). -/
theorem host_entry {D : DotDims ⟨2, ![m, c]⟩ ⟨2, ![c, n]⟩ ⟨2, ![m, n]⟩} (hD : IsMatProduct D)
    (x : FVec Ideal ⟨2, ![m, a]⟩ .f32) (g : FVec Ideal ⟨2, ![m, b]⟩ .f32) (w : FVec Ideal ⟨2, ![c, n]⟩ .f32)
    (bias : FVec Ideal ⟨1, ![n]⟩ .f32)
    (h : Shape.Concatenates [(⟨2, ![m, a]⟩ : Shape), ⟨2, ![m, b]⟩] ⟨2, ![m, c]⟩ (1 : Fin 2)) (hc : c ≤ a + b)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2))
    (h₀ : (⟨0, ![]⟩ : Shape).BroadcastsInDim ⟨2, ![m, n]⟩ (![] : Fin 0 → Fin 2)) (p : Fin m) (q : Fin n) :
    maximumf (addf (Host.dotGeneral (F := Ideal) D none
          (concatenate (⟨2, ![m, c]⟩ : Shape) (1 : Fin 2) [⟨⟨2, ![m, a]⟩, x⟩, ⟨⟨2, ![m, b]⟩, g⟩] h) w)
        (broadcastInDim ⟨2, ![m, n]⟩ ![0, 1] h₂ (broadcastInDim ⟨2, ![1, n]⟩ ![1] h₁ bias)))
        (broadcastInDim ⟨2, ![m, n]⟩ ![] h₀ (constant (F := Ideal) ⟨0, ![]⟩ .f32 0x00000000#32)) (ix2 p q)
      = entry (fun j => x (ix2 p j)) (fun j => g (ix2 p j)) (fun k => w (ix2 k q)) (bias (ix1 q)) := by
  rw [maximumf_apply, host_dense_entry hD,
    broadcastInDim_apply _ h₀ _ (ix2 p q) ix0 (fun ax => ax.elim0), constant_apply, Ideal.ofBits_zero_f32]
  unfold entry
  refine congrArg (fun s => max (s + bias (ix1 q)) 0) (Finset.sum_congr rfl fun k _ => ?_)
  rw [concat_entry x g h hc p k]

end Cert.Lib.JoinedLayer

end
-- ==== Proof.KernelBlock.lean ====
/-
  What one grid point's body stores, entry by entry.

  A point's body loads a 5000×128 block of node features, the matching block of neighbourhood means, the whole
  256×128 weight matrix and the 1×128 bias row; it joins the two blocks along the columns, multiplies by the weights
  into a zero accumulator, adds the bias row down the rows and takes the maximum with zero.  The roundings to a
  narrower float format on the way into the product are the identity at exact arithmetic, so entry (p, q) of what
  is stored is the layer's entry from rows p of the two blocks, column q of the weights and entry q of the bias row.
-/
import proofs.«181337_j49289044689459_2_alg».proof.Proof.Gen.KernelIdeal.Skeleton
import proofs.«181337_j49289044689459_2_alg».proof.Proof.LibJoinedLayer

noncomputable section

namespace Cert.KernelIdeal.Block

open Idealize.ShloMosaic Idealize.ShloMosaic.TcCoe Idealize.SL.Sem Idealize.ShloMosaic.ValueIdx
open Cert.KernelIdeal Cert.KernelIdeal.Gen Cert.Lib.JoinedLayer

/-- The body's product contracts the joined block's columns against the weights' rows. -/
theorem isMat : Cert.Lib.DenseLayer.IsMatProduct dot_S5000x256_S256x128_S5000x128_1_0_0_1_n_n :=
  ⟨rfl, rfl, rfl, rfl, rfl, rfl⟩

/-- The first layer's stored block at entry (p, q). -/
theorem pay0_entry (x0 x1 : Vec Ideal S5000x128 .f32) (x2 : Vec Ideal S256x128 .f32) (x3 : Vec Ideal S1x128 .f32)
    (p : Fin 5000) (q : Fin 128) :
    k0_pay1 (F := Ideal) x0 x1 x2 x3 (ix2 p q)
      = entry (fun j : Fin 128 => x0 (ix2 p j)) (fun j : Fin 128 => x1 (ix2 p j)) (fun k : Fin 256 => x2 (ix2 k q))
          (x3 (ix2 (0 : Fin 1) q)) := by
  unfold k0_pay1
  rw [shapeCast_self, shapeCast_self]
  exact kernel_entry isMat (φ := .bf16) (φw := .bf16) (truncf .bf16 x0 bitsLt_bf16_f32) (truncf .bf16 x1 bitsLt_bf16_f32)
    (truncf .bf16 x2 bitsLt_bf16_f32) x3 concatenates_S5000x128_S5000x128_S5000x256_d1 (by decide)
    broadcasts_S1x128_S5000x128 _ Ideal.ofBits_zero_f32 p q

/-- The second layer's stored block at entry (p, q). -/
theorem pay1_entry (x0 x1 : Vec Ideal S5000x128 .f32) (x2 : Vec Ideal S256x128 .f32) (x3 : Vec Ideal S1x128 .f32)
    (p : Fin 5000) (q : Fin 128) :
    k1_pay1 (F := Ideal) x0 x1 x2 x3 (ix2 p q)
      = entry (fun j : Fin 128 => x0 (ix2 p j)) (fun j : Fin 128 => x1 (ix2 p j)) (fun k : Fin 256 => x2 (ix2 k q))
          (x3 (ix2 (0 : Fin 1) q)) := by
  unfold k1_pay1
  rw [shapeCast_self, shapeCast_self, shapeCast_self]
  exact kernel_entry isMat (φ := .bf16) (φw := .bf16) (truncf .bf16 x0 bitsLt_bf16_f32) (truncf .bf16 x1 bitsLt_bf16_f32)
    (truncf .bf16 x2 bitsLt_bf16_f32) x3 concatenates_S5000x128_S5000x128_S5000x256_d1 (by decide)
    broadcasts_S1x128_S5000x128 _ Ideal.ofBits_zero_f32 p q

/-- The same at any index of the block, through its two coordinates. -/
theorem pay0_at (x0 x1 : Vec Ideal S5000x128 .f32) (x2 : Vec Ideal S256x128 .f32) (x3 : Vec Ideal S1x128 .f32)
    (j : S5000x128.Idx) :
    k0_pay1 (F := Ideal) x0 x1 x2 x3 j
      = entry (fun j' : Fin 128 => x0 (ix2 (j 0) j')) (fun j' : Fin 128 => x1 (ix2 (j 0) j'))
          (fun k : Fin 256 => x2 (ix2 k (j 1))) (x3 (ix2 (0 : Fin 1) (j 1))) :=
  (congrArg (k0_pay1 (F := Ideal) x0 x1 x2 x3) (eq_ix2 j)).trans (pay0_entry x0 x1 x2 x3 (j 0) (j 1))

theorem pay1_at (x0 x1 : Vec Ideal S5000x128 .f32) (x2 : Vec Ideal S256x128 .f32) (x3 : Vec Ideal S1x128 .f32)
    (j : S5000x128.Idx) :
    k1_pay1 (F := Ideal) x0 x1 x2 x3 j
      = entry (fun j' : Fin 128 => x0 (ix2 (j 0) j')) (fun j' : Fin 128 => x1 (ix2 (j 0) j'))
          (fun k : Fin 256 => x2 (ix2 k (j 1))) (x3 (ix2 (0 : Fin 1) (j 1))) :=
  (congrArg (k1_pay1 (F := Ideal) x0 x1 x2 x3) (eq_ix2 j)).trans (pay1_entry x0 x1 x2 x3 (j 0) (j 1))

end Cert.KernelIdeal.Block

end
-- ==== Proof.KernelRegion.lean ====
/-
  What each layer's region leaves in its output array, as one function of the arrays it was entered with.

  A region's grid has ten points; point t loads rows 5000·t … 5000·t + 4999 of the node features and of the
  neighbourhood means, the whole weight matrix and the bias row, and writes back rows 5000·t … 5000·t + 4999 of the
  output.  Entry (p, q) of what point t writes depends on row p of its two blocks only, which is row 5000·t + p of the
  two arrays: so the block written back is that block of ONE array-wide function, the layer applied row by row, and
  since the ten blocks tile the 50000 rows the output array ends holding that function.
-/
import proofs.«181337_j49289044689459_2_alg».proof.Proof.Gen.KernelIdeal.Frame
import proofs.«181337_j49289044689459_2_alg».proof.Proof.KernelBlock
import Idealize.ShloMosaic.Lib.Pipeline.Value

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Block Cert.Lib.JoinedLayer

/-- One entry of a layer from whole arrays: node p's feature row joined with its neighbourhood-mean row, against
    column q of the weights, plus entry q of the bias row, rectified. -/
def layerAt (x g : S50000x128.Idx → EReal) (w : S256x128.Idx → EReal) (brow : S1x128.Idx → EReal)
    (p : Fin 50000) (q : Fin 128) : EReal :=
  entry (fun j : Fin 128 => x (ix2 p j)) (fun j : Fin 128 => g (ix2 p j)) (fun k : Fin 256 => w (ix2 k q))
    (brow (ix2 (0 : Fin 1) q))

/-- The layer as an array. -/
def layerRow (x g : S50000x128.Idx → EReal) (w : S256x128.Idx → EReal) (brow : S1x128.Idx → EReal) :
    S50000x128.Idx → EReal :=
  fun i => layerAt x g w brow (i 0) (i 1)

theorem hz : (![0, 0] : Fin 2 → Nat) = fun _ => 0 := funext fun a => by fin_cases a <;> rfl

variable (V : (c : Dev nD) → (b : Ref sig .tc) → Buf (Elt Ideal) ((c : Thread nD τ).loc b))

/-! ## The first layer's region -/

/-- Where the windows' blocks sit at point t: the row windows move with the output's, the others stay. -/
theorem idx_facts0 : ∀ t : Fin cfg0.N, win0_0.index t (0 : Fin 2) = win0_4.index t (0 : Fin 2)
    ∧ win0_0.index t (1 : Fin 2) = 0
    ∧ win0_1.index t (0 : Fin 2) = win0_4.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 :=
  (by decide +kernel : ∀ t : Fin grid0.N, _)

/-- Every block row of the output is some point's. -/
theorem idx_onto0 : ∀ q0 : Fin 10, ∃ t : Fin cfg0.N, win0_4.index t = ![q0.val, 0] :=
  (by decide +kernel : ∀ q0 : Fin 10, ∃ t : Fin grid0.N, win0_4.index t = ![q0.val, 0])

/-- What point t writes back is its block of the layer over the arrays the region was entered with. -/
theorem flushed0 (c : Dev nD) (t : Fin cfg0.N) :
    (dat0 V c).flushed 4 t = ((cfg0.win 4).blk t).view.read (Elt Ideal)
      (layerRow (V c main_arg0) (V c main_v27) (V c main_arg3) (V c main_v28)) := by
  show (cfg0.win 4).cut (grid0.coords t) ((dat0 V c).after 4 t) = _
  rw [after0_4]
  unfold out0_4
  rw [View.canon_unit_zero hz]
  simp only [View.ld_unit_zero (S := S5000x128) hz, View.ld_unit_zero (S := S256x128) hz, View.ld_unit_zero (S := S1x128) hz]
  obtain ⟨e0, e1, e2, e3, e4, e5, e6, e7, e8⟩ := idx_facts0 t
  funext j
  refine (pay0_at (iblk0 V c 0 t) (iblk0 V c 1 t) (iblk0 V c 2 t) (iblk0 V c 3 t) j).trans ?_
  show _ = layerAt (V c main_arg0) (V c main_v27) (V c main_arg3) (V c main_v28)
    ((((cfg0.win 4).blk t).view.emb j) 0) ((((cfg0.win 4).blk t).view.emb j) 1)
  unfold layerAt
  have hj0 : (j 0).val < 5000 := (j 0).isLt
  have hj1 : (j 1).val < 128 := (j 1).isLt
  refine entry_congr (fun j' => ?_) (fun j' => ?_) (fun k => ?_) ?_
  · show V c main_arg0 (((cfg0.win 0).blk t).view.emb (ix2 (j 0) j')) = _
    refine congrArg (V c main_arg0) (funext fun a => Fin.ext ?_)
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 128 + 1 * j'.val = j'.val; omega
  · show V c main_v27 (((cfg0.win 1).blk t).view.emb (ix2 (j 0) j')) = _
    refine congrArg (V c main_v27) (funext fun a => Fin.ext ?_)
    match a with
    | ⟨0, _⟩ => show win0_1.index t (0 : Fin 2) * 5000 + 1 * (j 0).val = win0_4.index t (0 : Fin 2) * 5000 + 1 * (j 0).val; omega
    | ⟨1, _⟩ => show win0_1.index t (1 : Fin 2) * 128 + 1 * j'.val = j'.val; omega
  · show V c main_arg3 (((cfg0.win 2).blk t).view.emb (ix2 k (j 1))) = _
    refine congrArg (V c main_arg3) (funext fun a => Fin.ext ?_)
    match a with
    | ⟨0, _⟩ => show win0_2.index t (0 : Fin 2) * 256 + 1 * k.val = k.val; omega
    | ⟨1, _⟩ => show win0_2.index t (1 : Fin 2) * 128 + 1 * (j 1).val = win0_4.index t (1 : Fin 2) * 128 + 1 * (j 1).val; omega
  · show V c main_v28 (((cfg0.win 3).blk t).view.emb (ix2 (0 : Fin 1) (j 1))) = _
    refine congrArg (V c main_v28) (funext fun a => Fin.ext ?_)
    match a with
    | ⟨0, _⟩ => show win0_3.index t (0 : Fin 2) * 1 + 1 * 0 = 0; omega
    | ⟨1, _⟩ => show win0_3.index t (1 : Fin 2) * 128 + 1 * (j 1).val = win0_4.index t (1 : Fin 2) * 128 + 1 * (j 1).val; omega

/-- An index of the output array is in point t's block iff each coordinate is in the block's range on its axis. -/
theorem mem_blk0 (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v29).slice (win0_4.rect t)).set ↔ _
  rw [View.set_slice_whole, Rect.mem_set_unit]
  exact Iff.rfl

/-- The ten blocks tile the array: row r lies in the block of point r / 5000. -/
theorem cover0 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ := idx_onto0 ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk0]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The first layer's output array after its region. -/
theorem final0 (c : Dev nD) :
    (dat0 V c).arrAt 4 cfg0.N = layerRow (V c main_arg0) (V c main_v27) (V c main_arg3) (V c main_v28) :=
  (dat0 V c).arrAt_eq_of_cover 4 _ (fun t _ => flushed0 V c t) cover0

/-! ## The second layer's region: the same shape of grid and windows, over the first layer's output -/

/-- Where the windows' blocks sit at point t: the row windows move with the output's, the others stay. -/
theorem idx_facts1 : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 :=
  (by decide +kernel : ∀ t : Fin grid1.N, _)

/-- Every block row of the output is some point's. -/
theorem idx_onto1 : ∀ q0 : Fin 10, ∃ t : Fin cfg1.N, win1_4.index t = ![q0.val, 0] :=
  (by decide +kernel : ∀ q0 : Fin 10, ∃ t : Fin grid1.N, win1_4.index t = ![q0.val, 0])

/-- What point t writes back is its block of the layer over the arrays the region was entered with. -/
theorem flushed1 (c : Dev nD) (t : Fin cfg1.N) :
    (dat1 V c).flushed 4 t = ((cfg1.win 4).blk t).view.read (Elt Ideal)
      (layerRow (V c main_v29) (V c main_v47) (V c main_arg5) (V c main_v48)) := by
  show (cfg1.win 4).cut (grid1.coords t) ((dat1 V c).after 4 t) = _
  rw [after1_4]
  unfold out1_4
  rw [View.canon_unit_zero hz]
  simp only [View.ld_unit_zero (S := S5000x128) hz, View.ld_unit_zero (S := S256x128) hz, View.ld_unit_zero (S := S1x128) hz]
  obtain ⟨e0, e1, e2, e3, e4, e5, e6, e7, e8⟩ := idx_facts1 t
  funext j
  refine (pay1_at (iblk1 V c 0 t) (iblk1 V c 1 t) (iblk1 V c 2 t) (iblk1 V c 3 t) j).trans ?_
  show _ = layerAt (V c main_v29) (V c main_v47) (V c main_arg5) (V c main_v48)
    ((((cfg1.win 4).blk t).view.emb j) 0) ((((cfg1.win 4).blk t).view.emb j) 1)
  unfold layerAt
  have hj0 : (j 0).val < 5000 := (j 0).isLt
  have hj1 : (j 1).val < 128 := (j 1).isLt
  refine entry_congr (fun j' => ?_) (fun j' => ?_) (fun k => ?_) ?_
  · show V c main_v29 (((cfg1.win 0).blk t).view.emb (ix2 (j 0) j')) = _
    refine congrArg (V c main_v29) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * j'.val = j'.val; omega
  · show V c main_v47 (((cfg1.win 1).blk t).view.emb (ix2 (j 0) j')) = _
    refine congrArg (V c main_v47) (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * j'.val = j'.val; omega
  · show V c main_arg5 (((cfg1.win 2).blk t).view.emb (ix2 k (j 1))) = _
    refine congrArg (V c main_arg5) (funext fun a => Fin.ext ?_)
    match a with
    | ⟨0, _⟩ => show win1_2.index t (0 : Fin 2) * 256 + 1 * k.val = k.val; omega
    | ⟨1, _⟩ => show win1_2.index t (1 : Fin 2) * 128 + 1 * (j 1).val = win1_4.index t (1 : Fin 2) * 128 + 1 * (j 1).val; omega
  · show V c main_v48 (((cfg1.win 3).blk t).view.emb (ix2 (0 : Fin 1) (j 1))) = _
    refine congrArg (V c main_v48) (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega

/-- An index of the output array is in point t's block iff each coordinate is in the block's range on its axis. -/
theorem mem_blk1 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v49).slice (win1_4.rect t)).set ↔ _
  rw [View.set_slice_whole, Rect.mem_set_unit]
  exact Iff.rfl

/-- The ten blocks tile the array: row r lies in the block of point r / 5000. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The second layer's output array after its region. -/
theorem final1 (c : Dev nD) :
    (dat1 V c).arrAt 4 cfg1.N = layerRow (V c main_v29) (V c main_v47) (V c main_arg5) (V c main_v48) :=
  (dat1 V c).arrAt_eq_of_cover 4 _ (fun t _ => flushed1 V c t) cover1

end Cert.KernelIdeal.RegionValue

end
-- ==== Proof.HostChain.lean ====
/-
  The two host-side stages both programs share, each named once.

  The neighbourhood mean of a feature matrix x over a graph: every edge gathers row src(e) of x, scales it by the
  edge's weight, and adds it into row dst(e) of a zero matrix; each row is then divided by max(in-degree, 1), the
  in-degree counted by adding ones into a zero vector at the destinations.  A negative source endpoint is first moved
  up by the row count, as the host's indexing does.  The dense layer on the host: the features and the means joined
  along the columns, times the weights, plus the bias along the rows, maximum with zero.

  Both are carried as opaque functions of their inputs: nothing in the certificate opens the gather or the
  scatter-add.  The layer is read at an entry.
-/
import proofs.«181337_j49289044689459_2_alg».proof.Proof.Gen.ReferenceIdeal
import proofs.«181337_j49289044689459_2_alg».proof.Proof.LibJoinedLayer

noncomputable section

namespace Cert.Bridge

open Idealize.ShloMosaic Idealize.ShloMosaic.TcCoe Idealize.SL.Sem Idealize.ShloMosaic.ValueIdx
open Cert.ReferenceIdeal Cert.ReferenceIdeal.Gen Cert.Lib.JoinedLayer

/-- A node-feature matrix: 50000 nodes, 128 features. -/
abbrev Feat : Type := FVec Ideal S50000x128 .f32
/-- The edge list: row 0 the sources, row 1 the destinations. -/
abbrev Edges : Type := IVec S2x640000 32
/-- One endpoint per edge. -/
abbrev Ends : Type := IVec S640000 32
/-- One weight per edge. -/
abbrev EdgeW : Type := FVec Ideal S640000 .f32
/-- One number per node. -/
abbrev NodeV : Type := FVec Ideal S50000 .f32

/-- The edges' source endpoints. -/
def srcOf (e : Edges) : Ends :=
  shapeCast _ (extractStridedSlice S1x640000 ![0, 0] e slices_S2x640000_S1x640000_0_0) shapeCasts_S1x640000_S640000

/-- The edges' destination endpoints. -/
def dstOf (e : Edges) : Ends :=
  shapeCast _ (extractStridedSlice S1x640000 ![1, 0] e slices_S2x640000_S1x640000_1_0) shapeCasts_S1x640000_S640000

/-- max(in-degree, 1) per node, from the destinations. -/
def degOf (d : Ends) : NodeV :=
  maximumf (F := Ideal) (Host.scatterAdd (F := Ideal) scatter_S50000_S640000x1_S640000_n_0_0_1
      (broadcastInDim S50000 ![] bcast_S_S50000 (constant (F := Ideal) S_ .f32 0x00000000#32))
      (broadcastInDim S640000x1 ![0] bcast_S640000_S640000x1_0 d)
      (broadcastInDim S640000 ![] bcast_S_S640000 (constant (F := Ideal) S_ .f32 0x3F800000#32)))
    (broadcastInDim S50000 ![] bcast_S_S50000 (constant (F := Ideal) S_ .f32 0x3F800000#32))

/-- The weighted neighbourhood sum of x divided row-wise by the given per-node divisor. -/
def aggWith (x : Feat) (s d : Ends) (att : EdgeW) (dg : NodeV) : Feat :=
  Host.divf (F := Ideal) (Host.scatterAdd (F := Ideal) scatter_S50000x128_S640000x1_S640000x128_1_0_0_1
      (broadcastInDim S50000x128 ![] bcast_S_S50000x128 (constant (F := Ideal) S_ .f32 0x00000000#32))
      (broadcastInDim S640000x1 ![0] bcast_S640000_S640000x1_0 d)
      (mulf (F := Ideal) (Host.gather gather_S50000x128_S640000x1_S640000x128_1_0_n_n_0_1_1128 x
          (broadcastInDim S640000x1 ![0] bcast_S640000_S640000x1_0
            (select (cmpi .slt s (broadcastInDim S640000 ![] bcast_S_S640000 (constantI S_ 32 0#32)))
              (addi s (broadcastInDim S640000 ![] bcast_S_S640000 (constantI S_ 32 50000#32))) s)))
        (broadcastInDim S640000x128 ![0, 1] bcast_S640000x1_S640000x128_0_1
          (broadcastInDim S640000x1 ![0] bcast_S640000_S640000x1_0 att))))
    (broadcastInDim S50000x128 ![0, 1] bcast_S50000x1_S50000x128_0_1
      (broadcastInDim S50000x1 ![0] bcast_S50000_S50000x1_0 dg))

/-- The neighbourhood mean of x over the graph. -/
def agg (x : Feat) (e : Edges) (att : EdgeW) : Feat :=
  aggWith x (srcOf e) (dstOf e) att (degOf (dstOf e))

/-- The dense layer as the host spells it. -/
def hostLayer (x g : Feat) (w : FVec Ideal S256x128 .f32)
    (b : FVec Ideal S128 .f32) : Feat :=
  maximumf (F := Ideal) (addf (F := Ideal) (Host.dotGeneral (F := Ideal) (φ₁ := .f32) (φ₂ := .f32) dot_S50000x256_S256x128_S50000x128_1_0_0_1_n_n none
        (concatenate S50000x256 1 [⟨S50000x128, x⟩, ⟨S50000x128, g⟩] concatenates_S50000x128_S50000x128_S50000x256_d1) w)
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

/-- The first layer's output: the layer over the input features and their neighbourhood mean. -/
def hidden (x : Feat) (e : Edges) (att : EdgeW) (w1 : FVec Ideal S256x128 .f32) (b1 : FVec Ideal S128 .f32) : Feat :=
  hostLayer x (agg x e att) w1 b1

/-- Both layers: the second over the first's output and ITS neighbourhood mean. -/
def twoLayers (x : Feat) (e : Edges) (att : EdgeW) (w1 : FVec Ideal S256x128 .f32) (b1 : FVec Ideal S128 .f32)
    (w2 : FVec Ideal S256x128 .f32) (b2 : FVec Ideal S128 .f32) : Feat :=
  hostLayer (hidden x e att w1 b1) (agg (hidden x e att w1 b1) e att) w2 b2

/-- The host's product contracts the joined matrix's columns against the weights' rows. -/
theorem isMat : Cert.Lib.DenseLayer.IsMatProduct dot_S50000x256_S256x128_S50000x128_1_0_0_1_n_n :=
  ⟨rfl, rfl, rfl, rfl, rfl, rfl⟩

/-- The host's layer at entry (p, q). -/
theorem hostLayer_entry (x g : Feat) (w : FVec Ideal S256x128 .f32)
    (b : FVec Ideal S128 .f32) (p : Fin 50000) (q : Fin 128) :
    hostLayer x g w b (ix2 p q)
      = entry (fun j : Fin 128 => x (ix2 p j)) (fun j : Fin 128 => g (ix2 p j)) (fun k : Fin 256 => w (ix2 k q))
          (b (ix1 q)) := by
  unfold hostLayer
  exact host_entry isMat x g w b concatenates_S50000x128_S50000x128_S50000x256_d1 (by decide)
    bcast_S128_S1x128_1 bcast_S1x128_S50000x128_0_1 bcast_S_S50000x128 p q

end Cert.Bridge

end
-- ==== Proof.KernelHost.lean ====
/-
  What the host stretches around the two layers' regions leave in the buffers the regions read.

  Before the first region the host computes the edges' endpoints, the in-degrees and the neighbourhood mean of the
  input features, and lays the first bias out as a row; the argument arrays are untouched.  Between the regions it
  computes the neighbourhood mean of the first layer's output with the SAME endpoints and in-degrees (buffers the
  first region does not touch), and lays the second bias out as a row.  The roundings to a narrower format around the
  gather are the identity at exact arithmetic, so each mean is the shared function `agg`.
-/
import proofs.«181337_j49289044689459_2_alg».proof.Proof.Gen.KernelIdeal.Frame
import proofs.«181337_j49289044689459_2_alg».proof.Proof.HostChain
import Idealize.ShloMosaic.Lib.StableHlo.Run

noncomputable section

namespace Cert.KernelIdeal.HostValue

open Idealize.ShloMosaic Idealize.ShloMosaic.TcCoe Idealize.SL.Sem Idealize.ShloMosaic.StableHlo
open Cert.KernelIdeal Cert.KernelIdeal.Gen Cert.Bridge

variable (m : (ℓ : Loc nD τ sig) → Buf (Elt Ideal) ℓ) (ρ : Dev nD → PrngReg)

/-! ## Before the first region -/

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl

/-- The source endpoints. -/
theorem W1_v1 (c : Dev nD) : W1 m ρ c (Proc.devRef .tc main_v1) = srcOf (m ((c : Thread nD τ).loc main_arg1)) := by
  show StableHlo.after hostOps0 (W0 m ρ c) (Proc.devRef .tc main_v1) = _
  after_results_simp <;> rfl
/-- The destination endpoints. -/
theorem W1_v3 (c : Dev nD) : W1 m ρ c (Proc.devRef .tc main_v3) = dstOf (m ((c : Thread nD τ).loc main_arg1)) := by
  show StableHlo.after hostOps0 (W0 m ρ c) (Proc.devRef .tc main_v3) = _
  after_results_simp <;> rfl
/-- max(in-degree, 1). -/
theorem W1_v9 (c : Dev nD) : W1 m ρ c (Proc.devRef .tc main_v9) = degOf (dstOf (m ((c : Thread nD τ).loc main_arg1))) := by
  show StableHlo.after hostOps0 (W0 m ρ c) (Proc.devRef .tc main_v9) = _
  after_results_simp <;> rfl
/-- The neighbourhood mean of the input features. -/
theorem W1_v27 (c : Dev nD) : W1 m ρ c (Proc.devRef .tc main_v27)
    = agg (m ((c : Thread nD τ).loc main_arg0)) (m ((c : Thread nD τ).loc main_arg1)) (m ((c : Thread nD τ).loc main_arg2)) := by
  show StableHlo.after hostOps0 (W0 m ρ c) (Proc.devRef .tc main_v27) = _
  after_results_simp <;> rfl
/-- The first bias as a row. -/
theorem W1_v28 (c : Dev nD) : W1 m ρ c (Proc.devRef .tc main_v28)
    = shapeCast S1x128 (m ((c : Thread nD τ).loc main_arg4)) shapeCasts_S128_S1x128 := by
  show StableHlo.after hostOps0 (W0 m ρ c) (Proc.devRef .tc main_v28) = _
  after_results_simp <;> rfl

/-! ## Between the regions: from the contents the first region leaves (`W2`) -/

/-- The first layer's output is not written again. -/
theorem W3_v29 (c : Dev nD) : W3 m ρ c (Proc.devRef .tc main_v29) = W2 m ρ c (Proc.devRef .tc main_v29) := by
  show StableHlo.after hostOps1 (W2 m ρ c) (Proc.devRef .tc main_v29) = _
  after_results_simp <;> rfl
theorem W3_arg5 (c : Dev nD) : W3 m ρ c (Proc.devRef .tc main_arg5) = W2 m ρ c (Proc.devRef .tc main_arg5) := by
  show StableHlo.after hostOps1 (W2 m ρ c) (Proc.devRef .tc main_arg5) = _
  after_results_simp <;> rfl
/-- The second bias as a row. -/
theorem W3_v48 (c : Dev nD) : W3 m ρ c (Proc.devRef .tc main_v48)
    = shapeCast S1x128 (W2 m ρ c (Proc.devRef .tc main_arg6)) shapeCasts_S128_S1x128 := by
  show StableHlo.after hostOps1 (W2 m ρ c) (Proc.devRef .tc main_v48) = _
  after_results_simp <;> rfl
/-- The neighbourhood mean of the first layer's output, over the endpoints and in-degrees computed before the first
    region. -/
theorem W3_v47 (c : Dev nD) : W3 m ρ c (Proc.devRef .tc main_v47)
    = aggWith (W2 m ρ c (Proc.devRef .tc main_v29)) (W2 m ρ c (Proc.devRef .tc main_v1))
        (W2 m ρ c (Proc.devRef .tc main_v3)) (W2 m ρ c (Proc.devRef .tc main_arg2)) (W2 m ρ c (Proc.devRef .tc main_v9)) := by
  show StableHlo.after hostOps1 (W2 m ρ c) (Proc.devRef .tc main_v47) = _
  after_results_simp <;> rfl

/-- The first region leaves every buffer that is not one of its arrays as it found it. -/
theorem W2_v1 (c : Dev nD) : W2 m ρ c (Proc.devRef .tc main_v1) = srcOf (m ((c : Thread nD τ).loc main_arg1)) :=
  (W2_of_ne m ρ c main_v1 (by decide)).trans (W1_v1 m ρ c)
theorem W2_v3 (c : Dev nD) : W2 m ρ c (Proc.devRef .tc main_v3) = dstOf (m ((c : Thread nD τ).loc main_arg1)) :=
  (W2_of_ne m ρ c main_v3 (by decide)).trans (W1_v3 m ρ c)
theorem W2_v9 (c : Dev nD) : W2 m ρ c (Proc.devRef .tc main_v9) = degOf (dstOf (m ((c : Thread nD τ).loc main_arg1))) :=
  (W2_of_ne m ρ c main_v9 (by decide)).trans (W1_v9 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)

end Cert.KernelIdeal.HostValue

end
-- ==== Proof.KernelValue.lean ====
/-
  The idealized kernel program's result as the two shared stages composed.

  Reading the last boundary's contents back through the fold: the second region's output array is the layer over the
  arrays it was entered with — the first layer's output, that output's neighbourhood mean, the second weights and
  the second bias as a row —, and the first region's output array is the layer over the input features, their
  neighbourhood mean, the first weights and the first bias as a row.  A layer over a bias laid out as a [1, 128] row is
  the host's layer over the bias itself: row 0 of the cast row is the bias.
-/
import proofs.«181337_j49289044689459_2_alg».proof.Proof.KernelRegion
import proofs.«181337_j49289044689459_2_alg».proof.Proof.KernelHost
import Idealize.ShloMosaic.Lib.ValueLayout

noncomputable section

namespace Cert.KernelIdeal.ResultValue

open Idealize.ShloMosaic Idealize.ShloMosaic.TcCoe Idealize.SL.Sem Idealize.ShloMosaic.ValueIdx
open Cert.KernelIdeal Cert.KernelIdeal.Gen Cert.KernelIdeal.RegionValue Cert.KernelIdeal.HostValue Cert.Bridge
open Cert.Lib.JoinedLayer

/-- The layer over a bias cast to a row is the host's layer over the bias. -/
theorem layerRow_cast (x g : Feat) (w : FVec Ideal S256x128 .f32) (b : FVec Ideal S128 .f32) :
    layerRow x g w (shapeCast S1x128 b shapeCasts_S128_S1x128) = hostLayer x g w b := by
  funext i
  obtain ⟨p, q, rfl⟩ : ∃ (p : Fin 50000) (q : Fin 128), i = ix2 p q := ⟨i 0, i 1, eq_ix2 i⟩
  rw [hostLayer_entry]
  show entry _ _ _ (shapeCast S1x128 b shapeCasts_S128_S1x128 (ix2 (0 : Fin 1) q)) = _
  rw [shapeCast_a_1a_apply b shapeCasts_S128_S1x128 0 q]

variable (m : (ℓ : Loc nD τ sig) → Buf (Elt Ideal) ℓ) (ρ : Dev nD → PrngReg)

/-- The first layer's output array after its region. -/
theorem W2_v29 (c : Dev nD) : W2 m ρ c (Proc.devRef .tc main_v29)
    = hidden (m ((c : Thread nD τ).loc main_arg0)) (m ((c : Thread nD τ).loc main_arg1))
        (m ((c : Thread nD τ).loc main_arg2)) (m ((c : Thread nD τ).loc main_arg3)) (m ((c : Thread nD τ).loc main_arg4)) := by
  refine (W2_arr m ρ c 4).trans ((final0 (V1 m ρ) c).trans ?_)
  show layerRow (W1 m ρ c (Proc.devRef .tc main_arg0)) (W1 m ρ c (Proc.devRef .tc main_v27))
    (W1 m ρ c (Proc.devRef .tc main_arg3)) (W1 m ρ c (Proc.devRef .tc main_v28)) = _
  rw [W1_arg0, W1_v27, W1_arg3, W1_v28, layerRow_cast]
  rfl

/-- The result array after the second region. -/
theorem W4_v49 (c : Dev nD) : W4 m ρ c (Proc.devRef .tc main_v49)
    = twoLayers (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (W4_arr m ρ c 4).trans ((final1 (V3 m ρ) c).trans ?_)
  show layerRow (W3 m ρ c (Proc.devRef .tc main_v29)) (W3 m ρ c (Proc.devRef .tc main_v47))
    (W3 m ρ c (Proc.devRef .tc main_arg5)) (W3 m ρ c (Proc.devRef .tc main_v48)) = _
  rw [W3_v29, W3_v47, W3_arg5, W3_v48, W2_v29, W2_v1, W2_v3, W2_v9, W2_arg2, W2_arg5, W2_arg6, layerRow_cast]
  rfl

end Cert.KernelIdeal.ResultValue

end
-- ==== Proof.RefValue.lean ====
/-
  The reference's result as the two shared stages composed.

  The reference's run ends with its result at one long term of the arguments.  That term is, literally, the host
  layer applied to the first host layer's output and that output's neighbourhood mean, the first host layer applied
  to the input features and their neighbourhood mean: the reference recomputes the endpoints and the in-degrees for
  the second mean, from the same edge list, so both means are the same function `agg`.
-/
import proofs.«181337_j49289044689459_2_alg».proof.Proof.Gen.ReferenceIdeal.Run
import proofs.«181337_j49289044689459_2_alg».proof.Proof.HostChain

noncomputable section

namespace Cert.Bridge

open Idealize.ShloMosaic Idealize.ShloMosaic.TcCoe Idealize.SL.Sem
open Cert.ReferenceIdeal Cert.ReferenceIdeal.Gen

set_option maxRecDepth 8192 in
/-- The reference's result term is the two layers of its arguments. -/
theorem ref_result (m : (ℓ : Loc nD τ sig) → Buf (Elt Ideal) ℓ) (c : Dev nD) :
    Cert.ReferenceIdeal.Value.res_main_v63 (F := Ideal) m c
      = twoLayers (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold Cert.ReferenceIdeal.Value.res_main_v63
  rfl

end Cert.Bridge

end
-- ==== Proof.lean ====
/-
  Two rounds of graph message passing, as a tiled TensorCore program and as plain array code, agree at exact arithmetic.

  Each round replaces a node's 128 features x by  max(0, [x, mean(x)] · W + b),  where mean(x) is the weighted mean of
  the node's in-neighbours' features over the edge list (a gather of source rows, a scale by the edge weights, an
  accumulating scatter into destination rows, a division by max(in-degree, 1)) and [·, ·] lays the two 128-wide rows
  side by side against the 256 × 128 weights.  The kernel program computes the mean on the host and the dense part in
  a region of ten grid points, each owning 5000 rows; the reference computes everything on the host.

  At exact arithmetic the two programs are the same function of the arguments:
  * the roundings to a narrower float format (around the gather, and on the way into the product) are the identity;
  * a TensorCore product into a zero accumulator and the host's dot_general are the same sum over the 256 joined
    positions, and both programs join the features and the means before the product, so not even the order of the
    sum differs;
  * entry (p, q) of a layer depends on row p of its two inputs only, so the ten blocks a region writes are the blocks
    of one array-wide function, and they tile the 50000 rows;
  * the neighbourhood mean is the same host chain in both programs (the kernel program computes the endpoints and
    the in-degrees once and reuses them; the reference recomputes them from the same edge list), and is carried as
    one opaque function: nothing here opens the gather or the scatter-add, and no finiteness of the inputs is used.
  The idealization pass rewrote nothing, so that conjunct is trivial; the three frames are the generated frame
  certificates and, for the reference, its generated run with the result dropped.
-/
import proofs.«181337_j49289044689459_2_alg».proof.Defs
import proofs.«181337_j49289044689459_2_alg».proof.Proof.Gen.Kernel
import proofs.«181337_j49289044689459_2_alg».proof.Proof.Gen.Kernel.Frame
import proofs.«181337_j49289044689459_2_alg».proof.Proof.Gen.KernelIdeal
import proofs.«181337_j49289044689459_2_alg».proof.Proof.Gen.KernelIdeal.Frame
import proofs.«181337_j49289044689459_2_alg».proof.Proof.Gen.ReferenceIdeal
import proofs.«181337_j49289044689459_2_alg».proof.Proof.Gen.Pre_finite_inputs
import proofs.«181337_j49289044689459_2_alg».proof.Proof.Gen.ReferenceIdeal.Run
import proofs.«181337_j49289044689459_2_alg».proof.Proof.KernelRun
import proofs.«181337_j49289044689459_2_alg».proof.Proof.KernelValue
import proofs.«181337_j49289044689459_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the two layers of the arguments, which agree. -/
theorem algebraic : Cert.algebraic_KernelIdeal_ReferenceIdeal := by
  intro m ρ m' ρ' _ hagree
  refine ⟨fun c => Cert.Bridge.twoLayers
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.ResultValue.W4_v49 m ρ c), (h c).2⟩)
      (Cert.KernelIdeal.RunValue.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.Bridge.ref_result]
    obtain ⟨h0, h1, h2, h3, h4, h5, h6⟩ := hagree c
    rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
